-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S16384x4096 : Shape := ⟨2, ![16384, 4096]⟩
abbrev S16384x512x8 : Shape := ⟨3, ![16384, 512, 8]⟩
abbrev S16384x512x1 : Shape := ⟨3, ![16384, 512, 1]⟩
abbrev S16384x512 : Shape := ⟨2, ![16384, 512]⟩
abbrev S16384x1024 : Shape := ⟨2, ![16384, 1024]⟩
abbrev S4096x512x8 : Shape := ⟨3, ![4096, 512, 8]⟩
abbrev S4096x512x1 : Shape := ⟨3, ![4096, 512, 1]⟩
abbrev S4096x512 : Shape := ⟨2, ![4096, 512]⟩
abbrev S4096x1024 : Shape := ⟨2, ![4096, 1024]⟩
abbrev S1024x4096 : Shape := ⟨2, ![1024, 4096]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 22
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S16384x512x8, .f32⟩
  | .hbm, ⟨5, _⟩ => ⟨S16384x512x1, .f32⟩
  | .hbm, ⟨6, _⟩ => ⟨S16384x512, .f32⟩
  | .hbm, ⟨7, _⟩ => ⟨S16384x512x1, .f32⟩
  | .hbm, ⟨8, _⟩ => ⟨S16384x512, .f32⟩
  | .hbm, ⟨9, _⟩ => ⟨S16384x1024, .f32⟩
  | .hbm, ⟨10, _⟩ => ⟨S16384x1024, .bf16⟩
  | .hbm, ⟨11, _⟩ => ⟨S4096x512x8, .f32⟩
  | .hbm, ⟨12, _⟩ => ⟨S4096x512x1, .f32⟩
  | .hbm, ⟨13, _⟩ => ⟨S4096x512, .f32⟩
  | .hbm, ⟨14, _⟩ => ⟨S4096x512x1, .f32⟩
  | .hbm, ⟨15, _⟩ => ⟨S4096x512, .f32⟩
  | .hbm, ⟨16, _⟩ => ⟨S4096x1024, .f32⟩
  | .hbm, ⟨17, _⟩ => ⟨S1024x4096, .f32⟩
  | .hbm, ⟨18, _⟩ => ⟨S1024x4096, .bf16⟩
  | .hbm, ⟨19, _⟩ => ⟨S1x4096, .f32⟩
  | .hbm, ⟨20, _⟩ => ⟨S16384x4096, .f32⟩
  | .hbm, ⟨21, _⟩ => ⟨S8x2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x2048x4096_S16384x4096 : S8x2048x4096.ShapeCasts S16384x4096
  shapeCasts_S16384x4096_S16384x512x8 : S16384x4096.ShapeCasts S16384x512x8
  slices_S16384x512x8_S16384x512x1_0_0_0 : S16384x512x8.Slices ![0, 0, 0] S16384x512x1
  shapeCasts_S16384x512x1_S16384x512 : S16384x512x1.ShapeCasts S16384x512
  slices_S16384x512x8_S16384x512x1_0_0_2 : S16384x512x8.Slices ![0, 0, 2] S16384x512x1
  concatenates_S16384x512_S16384x512_S16384x1024_d1 : Shape.Concatenates [S16384x512, S16384x512] S16384x1024 1
  bitsLt_bf16_f32 : FTy.bits .bf16 < FTy.bits .f32
  shapeCasts_S4096x4096_S4096x512x8 : S4096x4096.ShapeCasts S4096x512x8
  slices_S4096x512x8_S4096x512x1_0_0_0 : S4096x512x8.Slices ![0, 0, 0] S4096x512x1
  shapeCasts_S4096x512x1_S4096x512 : S4096x512x1.ShapeCasts S4096x512
  slices_S4096x512x8_S4096x512x1_0_0_2 : S4096x512x8.Slices ![0, 0, 2] S4096x512x1
  concatenates_S4096x512_S4096x512_S4096x1024_d1 : Shape.Concatenates [S4096x512, S4096x512] S4096x1024 1
  transposes_S4096x1024_S1024x4096_1_0 : S4096x1024.Transposes [1, 0] S1024x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S16384x4096_S8x2048x4096 : S16384x4096.ShapeCasts S8x2048x4096
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .bf16 = 32 ∨ (Rect.block (s := S16384x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x4096.size a
  hwx0_1 : ∀ i : grid0.Coords, EltTy.bits .bf16 = 32 ∨ (Rect.block (s := S1024x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S16384x4096.size a
  hwx0_3 : ∀ i : grid0.Coords, EltTy.bits .f32 = 32 ∨ (Rect.block (s := S16384x4096) S2048x1024.size (cc0_transform_3 i) (hinb0_3 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v7) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S8 : Shape := ⟨1, ![8]⟩
abbrev S1x8 : Shape := ⟨2, ![1, 8]⟩
abbrev S512x8 : Shape := ⟨2, ![512, 8]⟩
abbrev S1x4096 : Shape := ⟨2, ![1, 4096]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S8, .f32⟩
  | .hbm, ⟨4, _⟩ => ⟨S1x8, .f32⟩
  | .hbm, ⟨5, _⟩ => ⟨S512x8, .f32⟩
  | .hbm, ⟨6, _⟩ => ⟨S4096, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S8x2048x4096, .f32⟩
  | .hbm, ⟨11, _⟩ => ⟨S1x1x4096, .f32⟩
  | .hbm, ⟨12, _⟩ => ⟨S8x2048x4096, .f32⟩
  | .hbm, ⟨13, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S8_S1x8 : S8.ShapeCasts S1x8
  bcast_S1x8_S512x8_0_1 : S1x8.BroadcastsInDim S512x8 (![0, 1] : Fin 2 → Fin S512x8.rank)
  shapeCasts_S512x8_S4096 : S512x8.ShapeCasts S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.BlockValue.lean ====
/-
  One grid point's arithmetic, read at an entry of its output block.

  The body multiplies its [2048, 1024] input block by its [1024, 1024] weight block into a zero accumulator and adds
  the [1, 1024] bias block broadcast down the rows. On the extended reals the entry (r, c) of what it stores is
  therefore the sum over the 1024 compacted positions k of input(r, k) · weight(k, c), plus bias(0, c).
-/
import proofs.«126906_j56813827392139_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-- The body's matrix product: rows of the input block against columns of the weight block. -/
abbrev blockDot : DotDims S2048x1024 S1024x1024 S2048x1024 := dot_S2048x1024_S1024x1024_S2048x1024_1_0_0_1_n_n

/-- The left operand is read at the output's row … -/
theorem lhs_row (i : S2048x1024.Idx) (q : blockDot.contr.Idx) : (blockDot.lhsIdx i q 0).val = (i 0).val := by
  unfold DotDims.lhsIdx
  rw [dif_neg (show ¬(0 : Fin S2048x1024.rank) ∈ blockDot.lhsBatch by decide),
    dif_pos (show (0 : Fin S2048x1024.rank) ∈ blockDot.lhsNonContracting by decide)]
  rfl
/-- … and at the contracted position; -/
theorem lhs_pos (i : S2048x1024.Idx) (q : blockDot.contr.Idx) : (blockDot.lhsIdx i q 1).val = (q ⟨0, by decide⟩).val :=
  blockDot.lhsIdx_val_of_single rfl i q
/-- the right operand at the contracted position … -/
theorem rhs_pos (i : S2048x1024.Idx) (q : blockDot.contr.Idx) : (blockDot.rhsIdx i q 0).val = (q ⟨0, by decide⟩).val :=
  blockDot.rhsIdx_val_of_single rfl i q
/-- … and at the output's column. -/
theorem rhs_col (i : S2048x1024.Idx) (q : blockDot.contr.Idx) : (blockDot.rhsIdx i q 1).val = (i 1).val := by
  unfold DotDims.rhsIdx
  rw [dif_neg (show ¬(1 : Fin S1024x1024.rank) ∈ blockDot.rhsBatch by decide),
    dif_pos (show (1 : Fin S1024x1024.rank) ∈ blockDot.rhsNonContracting by decide)]
  rfl

/-- The product into the zero accumulator at (r, c): the sum over the compacted positions. -/
theorem product_apply (a : FVec Ideal S2048x1024 .bf16) (b : FVec Ideal S1024x1024 .bf16) (r : Fin 2048) (c : Fin 1024) :
    matmul blockDot none a b (constant (F := Ideal) S2048x1024 .f32 0x00000000#32) (ix2 r c)
      = ∑ k : Fin 1024, a (ix2 r k) * b (ix2 k c) := by
  refine (Ideal.matmul_constant_zero_apply blockDot none a b (ix2 r c)).trans ?_
  rw [← Equiv.sum_comp (contrEquiv1 blockDot 1024 rfl rfl).symm]
  refine Finset.sum_congr rfl fun k _ => ?_
  have hk := contrEquiv1_symm_val blockDot 1024 rfl rfl k
  have el : blockDot.lhsIdx (ix2 r c) ((contrEquiv1 blockDot 1024 rfl rfl).symm k) = ix2 r k := funext fun x => Fin.ext (by
    match x with
    | ⟨0, _⟩ => exact lhs_row _ _
    | ⟨1, _⟩ => exact (lhs_pos _ _).trans hk)
  have er : blockDot.rhsIdx (ix2 r c) ((contrEquiv1 blockDot 1024 rfl rfl).symm k) = ix2 k c := funext fun x => Fin.ext (by
    match x with
    | ⟨0, _⟩ => exact (rhs_pos _ _).trans hk
    | ⟨1, _⟩ => exact rhs_col _ _)
  rw [el, er]

/-- The bias block broadcast down the rows, at (r, c): the bias at (0, c). -/
theorem biasRows_apply (z : FVec Ideal S1x1024 .f32) (r : Fin 2048) (c : Fin 1024) :
    broadcastTo S2048x1024 z broadcasts_S1x1024_S2048x1024 (ix2 r c) = z (ix2 (0 : Fin 1) c) :=
  broadcastTo_apply z broadcasts_S1x1024_S2048x1024 (ix2 r c) (ix2 (0 : Fin 1) c) fun x => by
    match x with
    | ⟨0, _⟩ => rfl
    | ⟨1, _⟩ => rfl

/-- WHAT THE BODY STORES, at (r, c): the sum over the compacted positions k of input(r, k) · weight(k, c), plus
    bias(0, c). -/
theorem stored_apply (x0 : Vec Ideal S2048x1024 .bf16) (x1 : Vec Ideal S1024x1024 .bf16) (x2 : Vec Ideal S1x1024 .f32)
    (r : Fin 2048) (c : Fin 1024) :
    k0_pay1 (F := Ideal) x0 x1 x2 (ix2 r c) = (∑ k : Fin 1024, x0 (ix2 r k) * x1 (ix2 k c)) + x2 (ix2 (0 : Fin 1) c) := by
  unfold k0_pay1
  simp only [shapeCast_self]
  refine (addf_apply _ _ _).trans ?_
  rw [product_apply, biasRows_apply]

end Cert.KernelIdeal.BlockValue

end
-- ==== Proof.GridValue.lean ====
/-
  From grid points to the whole output array of the grid.

  The grid has 8 × 4 points. Point (i, j) reads rows 2048·i … 2048·i + 2047 of the compacted input (all 1024
  positions), columns 1024·j … 1024·j + 1023 of the compacted transposed weight (all 1024 positions) and of the bias
  row, and writes back the [2048, 1024] block (i, j) of the [16384, 4096] output. What it writes back is the block of
  ONE whole-array function, `matmulBias`: entry (r, o) is the sum over positions k of input(r, k) · weight(k, o), plus
  bias(0, o). The 32 blocks tile the output, so after the grid the output array is that function.
-/
import proofs.«126906_j56813827392139_2_alg».proof.Proof.Gen.KernelIdeal.Frame
import proofs.«126906_j56813827392139_2_alg».proof.Proof.BlockValue

noncomputable section

open scoped BigOperators

namespace Cert.KernelIdeal.GridValue

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.BlockValue

variable (m : (ℓ : Loc nD τ sig) → Buf (Elt Ideal) ℓ) (ρ : Dev nD → PrngReg)

/-- The whole-array function the grid computes: entry (r, o) is the sum over the compacted positions k of
    input(r, k) · weight(k, o), plus bias(0, o). -/
def matmulBias (a : S16384x1024.Idx → EReal) (b : S1024x4096.Idx → EReal) (z : S1x4096.Idx → EReal) : S16384x4096.Idx → EReal :=
  fun j => (∑ k : Fin 1024, a (ix2 (j 0 : Fin 16384) k) * b (ix2 k (j 1 : Fin 4096))) + z (ix2 (0 : Fin 1) (j 1 : Fin 4096))

/-- `matmulBias` at an index given by its coordinates. -/
theorem matmulBias_apply (a : S16384x1024.Idx → EReal) (b : S1024x4096.Idx → EReal) (z : S1x4096.Idx → EReal) (r : Fin 16384) (o : Fin 4096) :
    matmulBias a b z (ix2 r o) = (∑ k : Fin 1024, a (ix2 r k) * b (ix2 k o)) + z (ix2 (0 : Fin 1) o) := rfl

theorem zero_offsets : (![0, 0] : Fin 2 → Nat) = fun _ => 0 := funext fun a => by fin_cases a <;> rfl

/-- One point's stored block is the block of `matmulBias` of three arrays, when its three input blocks are the
    blocks of those arrays at block row `i0` (input), block column `i1` (weight, bias). -/
theorem stored_block (x0 : Vec Ideal S2048x1024 .bf16) (x1 : Vec Ideal S1024x1024 .bf16) (x2 : Vec Ideal S1x1024 .f32)
    (A : S16384x1024.Idx → EReal) (B : S1024x4096.Idx → EReal) (Z : S1x4096.Idx → EReal) (i0 i1 : Nat) (hi0 : i0 ≤ 7) (hi1 : i1 ≤ 3)
    (h0 : ∀ (r : Fin 2048) (k : Fin 1024), x0 (ix2 r k) = A (ix2 (⟨i0 * 2048 + r.val, by omega⟩ : Fin 16384) k))
    (h1 : ∀ (k : Fin 1024) (cc : Fin 1024), x1 (ix2 k cc) = B (ix2 k (⟨i1 * 1024 + cc.val, by omega⟩ : Fin 4096)))
    (h2 : ∀ cc : Fin 1024, x2 (ix2 (0 : Fin 1) cc) = Z (ix2 (0 : Fin 1) (⟨i1 * 1024 + cc.val, by omega⟩ : Fin 4096)))
    (r : Fin 2048) (cc : Fin 1024) :
    k0_pay1 (F := Ideal) x0 x1 x2 (ix2 r cc)
      = matmulBias A B Z (ix2 (⟨i0 * 2048 + r.val, by omega⟩ : Fin 16384) (⟨i1 * 1024 + cc.val, by omega⟩ : Fin 4096)) := by
  rw [stored_apply, matmulBias_apply, h2]
  refine congrArg (· + _) (Finset.sum_congr rfl fun k _ => ?_)
  rw [h0, h1]

/-- The printed index maps over the 32 points: the input block moves with the output's block row, the weight and the
    bias blocks with its block column, and every other block coordinate is 0. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 7 ∧ win0_3.index t (1 : Fin 2) ≤ 3 :=
  (by decide +kernel : ∀ t : Fin grid0.N, _)

/-- Every block of the output is some point's. -/
theorem idx_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-- WHAT POINT `t` WRITES BACK is block `t` of `matmulBias` of the three arrays as the grid finds them. -/
theorem flushed_eq (c : Dev nD) (t : Fin cfg0.N) :
    (dats m 0 c).flushed 3 t
      = ((cfg0.win 3).blk t).view.read (Elt Ideal) (matmulBias (V m c main_v7) (V m c main_v15) (V m c main_v16)) := by
  show (cfg0.win 3).cut (grid0.coords t) ((dats m 0 c).after 3 t) = _
  rw [after0_3]
  unfold out0_3
  rw [View.canon_unit_zero zero_offsets]
  simp only [View.ld_unit_zero (S := S2048x1024) zero_offsets, View.ld_unit_zero (S := S1024x1024) zero_offsets,
    View.ld_unit_zero (S := S1x1024) zero_offsets]
  obtain ⟨e0, e1, e2, e3, e4, e5, e6, e7⟩ := idx_facts t
  funext j
  obtain ⟨r, cc, rfl⟩ : ∃ (r : Fin 2048) (cc : Fin 1024), j = ix2 r cc := ⟨j 0, j 1, eq_ix2 j⟩
  have hout : ((cfg0.win 3).blk t).view.emb (ix2 r cc)
      = ix2 (⟨win0_3.index t (0 : Fin 2) * 2048 + r.val, by omega⟩ : Fin 16384) (⟨win0_3.index t (1 : Fin 2) * 1024 + cc.val, by omega⟩ : Fin 4096) := by
    funext a; apply Fin.ext
    match a with
    | ⟨0, _⟩ => show win0_3.index t (0 : Fin 2) * 2048 + 1 * r.val = win0_3.index t (0 : Fin 2) * 2048 + r.val; omega
    | ⟨1, _⟩ => show win0_3.index t (1 : Fin 2) * 1024 + 1 * cc.val = win0_3.index t (1 : Fin 2) * 1024 + cc.val; omega
  show k0_pay1 (F := Ideal) (iblk m c 0 t) (iblk m c 1 t) (iblk m c 2 t) (ix2 r cc)
    = matmulBias (V m c main_v7) (V m c main_v15) (V m c main_v16) (((cfg0.win 3).blk t).view.emb (ix2 r cc))
  rw [hout]
  refine stored_block (iblk m c 0 t) (iblk m c 1 t) (iblk m c 2 t) (V m c main_v7) (V m c main_v15) (V m c main_v16)
    (win0_3.index t (0 : Fin 2)) (win0_3.index t (1 : Fin 2)) e6 e7 ?_ ?_ ?_ r cc
  · intro r k
    show V m c main_v7 (((cfg0.win 0).blk t).view.emb (ix2 r k)) = V m c main_v7 (ix2 _ k)
    refine congrArg (V m c main_v7) (funext fun a => Fin.ext ?_)
    match a with
    | ⟨0, _⟩ => show win0_0.index t (0 : Fin 2) * 2048 + 1 * r.val = win0_3.index t (0 : Fin 2) * 2048 + r.val; omega
    | ⟨1, _⟩ => show win0_0.index t (1 : Fin 2) * 1024 + 1 * k.val = k.val; omega
  · intro k cc
    show V m c main_v15 (((cfg0.win 1).blk t).view.emb (ix2 k cc)) = V m c main_v15 (ix2 k _)
    refine congrArg (V m c main_v15) (funext fun a => Fin.ext ?_)
    match a with
    | ⟨0, _⟩ => show win0_1.index t (0 : Fin 2) * 1024 + 1 * k.val = k.val; omega
    | ⟨1, _⟩ => show win0_1.index t (1 : Fin 2) * 1024 + 1 * cc.val = win0_3.index t (1 : Fin 2) * 1024 + cc.val; omega
  · intro cc
    show V m c main_v16 (((cfg0.win 2).blk t).view.emb (ix2 (0 : Fin 1) cc)) = V m c main_v16 (ix2 (0 : Fin 1) _)
    refine congrArg (V m c main_v16) (funext fun a => Fin.ext ?_)
    match a with
    | ⟨0, _⟩ => show win0_2.index t (0 : Fin 2) * 1 + 1 * 0 = 0; omega
    | ⟨1, _⟩ => show win0_2.index t (1 : Fin 2) * 1024 + 1 * cc.val = win0_3.index t (1 : Fin 2) * 1024 + cc.val; omega

/-- An index of the output is in point `t`'s block iff each coordinate is in the block's range on its axis. -/
theorem mem_blk (t : Fin cfg0.N) (i : S16384x4096.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v17).slice (win0_3.rect t)).set ↔ _
  rw [View.set_slice_whole, Rect.mem_set_unit]
  exact Iff.rfl

/-- Every index of the output is in the block of the point at block row `row / 2048`, block column `column / 1024`. -/
theorem cover (i : S16384x4096.Idx) : ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := idx_onto ⟨(i 0).val / 2048, by omega⟩ ⟨(i 1).val / 1024, by omega⟩
  have q0 : win0_3.index t (0 : Fin 2) = (i 0).val / 2048 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1024 ≤ (i 1).val ∧ (i 1).val < win0_3.index t (1 : Fin 2) * 1024 + 1024; omega

/-- THE OUTPUT ARRAY AFTER THE GRID is `matmulBias` of the three arrays as the grid finds them. -/
theorem gridOutput (c : Dev nD) :
    (dats m 0 c).arrAt 3 cfg0.N = matmulBias (V m c main_v7) (V m c main_v15) (V m c main_v16) :=
  (dats m 0 c).arrAt_eq_of_cover 3 (matmulBias (V m c main_v7) (V m c main_v15) (V m c main_v16))
    (fun t _ => flushed_eq m c t) cover

end Cert.KernelIdeal.GridValue

end
-- ==== Proof.MaskedSum.lean ====
/-
  The arithmetic heart of the certificate, over the extended reals and free of any program.

  A row of 4096 entries is cut into 512 groups of 8. A mask keeps positions 0 and 2 of every group and
  zeroes the other six. Summing the masked products over all 4096 columns is therefore the same as summing
  the plain products over the 1024 kept columns, listed as: first position 0 of every group (columns
  0, 8, 16, …), then position 2 of every group (columns 2, 10, 18, …). On the extended reals a product
  with 0 is 0 for every factor, infinite ones included, so no finiteness is needed; only commutativity and
  associativity of the sum are used to regroup it.
-/
import Idealize.ShloMosaic.PureOps.Ideal

noncomputable section

open scoped BigOperators

namespace Cert.SparseLinear

/-- The dense column kept at compacted position `k`: column `8k` for `k < 512` (position 0 of group `k`),
    column `8(k - 512) + 2` otherwise (position 2 of group `k - 512`). -/
def keptCol (k : Fin 1024) : Fin 4096 :=
  if h : k.val < 512 then ⟨8 * k.val, by omega⟩ else ⟨8 * (k.val - 512) + 2, by have := k.isLt; omega⟩

/-- The mask of one group of 8: one at positions 0 and 2, zero elsewhere. -/
def keepMask (r : Fin 8) : EReal := if r.val = 0 ∨ r.val = 2 then 1 else 0

/-- The position of a dense column inside its group of 8. -/
def groupPos (d : Fin 4096) : Fin 8 := ⟨d.val % 8, Nat.mod_lt _ (by norm_num)⟩

/-- The sum of products over the 1024 kept columns. -/
def compactSum (f g : Fin 4096 → EReal) : EReal := ∑ k : Fin 1024, f (keptCol k) * g (keptCol k)

/-- The sum over all 4096 columns of the products with the second factor masked. -/
def maskedSum (f g : Fin 4096 → EReal) : EReal := ∑ d : Fin 4096, f d * (g d * keepMask (groupPos d))

/-- The column at position `r` of group `j`, namely column `r + 8 j`; every column is reached exactly once. -/
def colOf : Fin 512 × Fin 8 ≃ Fin 4096 :=
  finProdFinEquiv.trans (finCongr (by norm_num))

/-- The column at position `r` of group `j` is column `r + 8 j`. -/
theorem colOf_val (j : Fin 512) (r : Fin 8) : (colOf (j, r)).val = r.val + 8 * j.val := by
  rfl

/-- The position inside its group of the column at position `r` of group `j` is `r`. -/
theorem groupPos_colOf (j : Fin 512) (r : Fin 8) : groupPos (colOf (j, r)) = r := by
  apply Fin.ext
  have hr := r.isLt
  simp only [groupPos, colOf_val]
  omega

/-- In the first half of the kept columns, the `j`-th one is position 0 of group `j`. -/
theorem keptCol_castAdd (j : Fin 512) : keptCol (Fin.castAdd 512 j) = colOf (j, 0) := by
  apply Fin.ext
  have hj := j.isLt
  rw [colOf_val]
  simp only [keptCol, Fin.coe_castAdd, hj, dite_true, Fin.val_zero]
  omega

/-- In the second half of the kept columns, the `j`-th one is position 2 of group `j`. -/
theorem keptCol_natAdd (j : Fin 512) : keptCol (Fin.natAdd 512 j) = colOf (j, 2) := by
  apply Fin.ext
  have hj := j.isLt
  rw [colOf_val]
  have h2 : ((2 : Fin 8)).val = 2 := rfl
  have hlt : ¬ (512 + j.val < 512) := by omega
  simp only [keptCol, Fin.coe_natAdd, hlt, dite_false, h2]
  omega

/-- Inside one group the masked sum keeps the products at positions 0 and 2 only. -/
theorem group_sum (f g : Fin 4096 → EReal) (j : Fin 512) :
    ∑ r : Fin 8, f (colOf (j, r)) * (g (colOf (j, r)) * keepMask r)
      = f (colOf (j, 0)) * g (colOf (j, 0)) + f (colOf (j, 2)) * g (colOf (j, 2)) := by
  rw [Fin.sum_univ_eight]
  simp [keepMask]

/-- Masking six of every eight columns to zero and summing over all columns is summing over the kept columns. -/
theorem maskedSum_eq_compactSum (f g : Fin 4096 → EReal) : maskedSum f g = compactSum f g := by
  have hsplit : ∑ k : Fin 1024, f (keptCol k) * g (keptCol k)
      = ∑ j : Fin 512, f (keptCol (Fin.castAdd 512 j)) * g (keptCol (Fin.castAdd 512 j))
        + ∑ j : Fin 512, f (keptCol (Fin.natAdd 512 j)) * g (keptCol (Fin.natAdd 512 j)) :=
    Fin.sum_univ_add (a := 512) (b := 512) (fun k => f (keptCol k) * g (keptCol k))
  unfold maskedSum compactSum
  rw [hsplit, ← Equiv.sum_comp colOf (fun d => f d * (g d * keepMask (groupPos d))),
    Fintype.sum_prod_type]
  simp only [groupPos_colOf, group_sum, keptCol_castAdd, keptCol_natAdd]
  rw [Finset.sum_add_distrib]

end Cert.SparseLinear

end
-- ==== Proof.KernelHost.lean ====
/-
  The three arrays the kernel's grid reads, as the host lines before it leave them, in terms of the arguments.

  Row `p·2048 + q` of the compacted input holds, at compacted position `k`, the entry `x[p, q, keptCol k]`; the
  compacted, transposed weight holds at `(k, o)` the entry `w[o, keptCol k]`; the bias row holds `b[o]` at `(0, o)`.
-/
import proofs.«126906_j56813827392139_2_alg».proof.Proof.Gen.KernelIdeal.Frame
import proofs.«126906_j56813827392139_2_alg».proof.Proof.MaskedSum
import Idealize.ShloMosaic.Lib.Pipeline.Value
import Idealize.ShloMosaic.Lib.ValueIdx
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.ValueIdx Cert.SparseLinear

variable (m : (ℓ : Loc nD τ sig) → Buf (Elt Ideal) ℓ)

/-- Cutting every row of 4096 entries into 512 groups of 8, keeping position `t` of every group and dropping the
    unit axis left behind: entry `(r, g)` of the result is entry `(r, 8 g + t)` of the row array. -/
theorem pick_apply {n : Nat} {α : Type} (t : Nat) (ht : t < 8) (Y : (⟨2, ![n, 4096]⟩ : Shape).Idx → α)
    (h1 : (⟨2, ![n, 4096]⟩ : Shape).ShapeCasts ⟨3, ![n, 512, 8]⟩)
    (h2 : (⟨3, ![n, 512, 8]⟩ : Shape).Slices ![0, 0, t] ⟨3, ![n, 512, 1]⟩)
    (h3 : (⟨3, ![n, 512, 1]⟩ : Shape).ShapeCasts ⟨2, ![n, 512]⟩)
    (r : Fin n) (g : Fin 512) :
    shapeCast ⟨2, ![n, 512]⟩
        (extractStridedSlice ⟨3, ![n, 512, 1]⟩ ![0, 0, t] (shapeCast ⟨3, ![n, 512, 8]⟩ Y h1) h2) h3 (ix2 r g)
      = Y (ix2 r (⟨8 * g.val + t, by have := g.isLt; omega⟩ : Fin 4096)) := by
  have hg := g.isLt
  -- dropping the unit axis: (r, g) reads (r, g, 0)
  refine (shapeCast_apply _ _ (ix2 r g) (ix3 r g (0 : Fin 1))
    (by rw [Shape.rowMajor_val_three, Shape.rowMajor_val_two]
        show (r.val * 512 + g.val) * 1 + 0 = r.val * 512 + g.val
        omega)).trans ?_
  -- the slice at position t: (r, g, 0) reads (r, g, t)
  refine (extractStridedSlice_apply _ _ _ (ix3 r g (0 : Fin 1)) (ix3 r g (⟨t, ht⟩ : Fin 8))
    (fun a => match a with
      | ⟨0, _⟩ => by show r.val = 0 + r.val; omega
      | ⟨1, _⟩ => by show g.val = 0 + g.val; omega
      | ⟨2, _⟩ => by show t = t + 0; omega)).trans ?_
  -- the cut into groups: (r, g, t) reads (r, 8 g + t)
  exact shapeCast_apply _ _ (ix3 r g (⟨t, ht⟩ : Fin 8)) (ix2 r ⟨8 * g.val + t, _⟩)
    (by rw [Shape.rowMajor_val_two, Shape.rowMajor_val_three]
        show r.val * 4096 + (8 * g.val + t) = (r.val * 512 + g.val) * 8 + t
        omega)

/-- Position 0 of every group followed by position 2 of every group, side by side: entry `(r, k)` of the
    compacted array is entry `(r, keptCol k)` of the row array. -/
theorem compact_apply {n : Nat} {α : Type} (Y : (⟨2, ![n, 4096]⟩ : Shape).Idx → α)
    (h1 : (⟨2, ![n, 4096]⟩ : Shape).ShapeCasts ⟨3, ![n, 512, 8]⟩)
    (h2a : (⟨3, ![n, 512, 8]⟩ : Shape).Slices ![0, 0, 0] ⟨3, ![n, 512, 1]⟩)
    (h2b : (⟨3, ![n, 512, 8]⟩ : Shape).Slices ![0, 0, 2] ⟨3, ![n, 512, 1]⟩)
    (h3 : (⟨3, ![n, 512, 1]⟩ : Shape).ShapeCasts ⟨2, ![n, 512]⟩)
    (hc : Shape.Concatenates [(⟨2, ![n, 512]⟩ : Shape), ⟨2, ![n, 512]⟩] ⟨2, ![n, 1024]⟩ 1)
    (r : Fin n) (k : Fin 1024) :
    concatenate ⟨2, ![n, 1024]⟩ 1
        [⟨⟨2, ![n, 512]⟩, shapeCast ⟨2, ![n, 512]⟩
            (extractStridedSlice ⟨3, ![n, 512, 1]⟩ ![0, 0, 0] (shapeCast ⟨3, ![n, 512, 8]⟩ Y h1) h2a) h3⟩,
         ⟨⟨2, ![n, 512]⟩, shapeCast ⟨2, ![n, 512]⟩
            (extractStridedSlice ⟨3, ![n, 512, 1]⟩ ![0, 0, 2] (shapeCast ⟨3, ![n, 512, 8]⟩ Y h1) h2b) h3⟩] hc (ix2 r k)
      = Y (ix2 r (keptCol k)) := by
  have hk4 := k.isLt
  by_cases hk : k.val < 512
  · -- the first half: position 0 of group k
    refine (concatenate_pair_apply_left 1 _ _ hc (ix2 r k) rfl (ix2 r (⟨k.val, hk⟩ : Fin 512))
      (fun b => match b with | ⟨0, _⟩ => rfl | ⟨1, _⟩ => rfl)).trans ?_
    refine (pick_apply 0 (by omega) Y h1 h2a h3 r ⟨k.val, hk⟩).trans ?_
    refine congrArg (fun z => Y (ix2 r z)) (Fin.ext ?_)
    unfold keptCol; rw [dif_pos hk]; rfl
  · -- the second half: position 2 of group k - 512
    have hk' : 512 ≤ k.val := Nat.le_of_not_lt hk
    refine (concatenate_pair_apply_right 1 _ _ hc (ix2 r k) rfl rfl
      (ix2 r (⟨k.val - 512, by omega⟩ : Fin 512))
      (fun b hb => match b, hb with
        | ⟨0, _⟩, _ => rfl
        | ⟨1, _⟩, hb => (hb (Fin.ext rfl)).elim)
      (by show (k.val - 512) + 512 = k.val; omega)).trans ?_
    refine (pick_apply 2 (by omega) Y h1 h2b h3 r ⟨k.val - 512, by omega⟩).trans ?_
    refine congrArg (fun z => Y (ix2 r z)) (Fin.ext ?_)
    unfold keptCol; rw [dif_neg hk]

/-- The compacted input is, as the host lines compute it: the input recast as 16384 rows of 4096, each row cut into
    512 groups of 8, position 0 of every group beside position 2 of every group, narrowed to the 16-bit format
    (the identity on extended reals). -/
theorem V_v7 (c : Dev nD) :
    (V m c main_v7 : S16384x1024.Idx → EReal)
      = truncf (F := Idealize.ShloMosaic.Ideal) .bf16 (concatenate S16384x1024 1
          [⟨S16384x512, shapeCast S16384x512 (extractStridedSlice S16384x512x1 ![0, 0, 0]
              (shapeCast S16384x512x8
                (shapeCast S16384x4096 (m ((c : Thread nD τ).loc main_arg0) : S8x2048x4096.Idx → EReal)
                  shapeCasts_S8x2048x4096_S16384x4096)
                shapeCasts_S16384x4096_S16384x512x8)
              slices_S16384x512x8_S16384x512x1_0_0_0) shapeCasts_S16384x512x1_S16384x512⟩,
           ⟨S16384x512, shapeCast S16384x512 (extractStridedSlice S16384x512x1 ![0, 0, 2]
              (shapeCast S16384x512x8
                (shapeCast S16384x4096 (m ((c : Thread nD τ).loc main_arg0) : S8x2048x4096.Idx → EReal)
                  shapeCasts_S8x2048x4096_S16384x4096)
                shapeCasts_S16384x4096_S16384x512x8)
              slices_S16384x512x8_S16384x512x1_0_0_2) shapeCasts_S16384x512x1_S16384x512⟩]
          concatenates_S16384x512_S16384x512_S16384x1024_d1) bitsLt_bf16_f32 := by
  show StableHlo.after hostOps0 (fun b => m (c, b)) (Proc.devRef .tc main_v7) = _
  after_results
  rfl

/-- The compacted, transposed weight is, as the host lines compute it: every row of the weight cut into 512 groups
    of 8, position 0 of every group beside position 2 of every group, transposed, narrowed to the 16-bit format
    (the identity on extended reals). -/
theorem V_v15 (c : Dev nD) :
    (V m c main_v15 : S1024x4096.Idx → EReal)
      = truncf (F := Idealize.ShloMosaic.Ideal) .bf16 (transpose S1024x4096 [1, 0] (concatenate S4096x1024 1
          [⟨S4096x512, shapeCast S4096x512 (extractStridedSlice S4096x512x1 ![0, 0, 0]
              (shapeCast S4096x512x8 (m ((c : Thread nD τ).loc main_arg1) : S4096x4096.Idx → EReal)
                shapeCasts_S4096x4096_S4096x512x8)
              slices_S4096x512x8_S4096x512x1_0_0_0) shapeCasts_S4096x512x1_S4096x512⟩,
           ⟨S4096x512, shapeCast S4096x512 (extractStridedSlice S4096x512x1 ![0, 0, 2]
              (shapeCast S4096x512x8 (m ((c : Thread nD τ).loc main_arg1) : S4096x4096.Idx → EReal)
                shapeCasts_S4096x4096_S4096x512x8)
              slices_S4096x512x8_S4096x512x1_0_0_2) shapeCasts_S4096x512x1_S4096x512⟩]
          concatenates_S4096x512_S4096x512_S4096x1024_d1) transposes_S4096x1024_S1024x4096_1_0) bitsLt_bf16_f32 := by
  show StableHlo.after hostOps0 (fun b => m (c, b)) (Proc.devRef .tc main_v15) = _
  after_results
  rfl

/-- The bias row is, as the host lines compute it, the bias vector recast as one row. -/
theorem V_v16 (c : Dev nD) :
    (V m c main_v16 : S1x4096.Idx → EReal)
      = shapeCast S1x4096 (m ((c : Thread nD τ).loc main_arg2) : S4096.Idx → EReal) shapeCasts_S4096_S1x4096 := by
  show StableHlo.after hostOps0 (fun b => m (c, b)) (Proc.devRef .tc main_v16) = _
  after_results
  rfl

/-- The compacted input as the grid finds it: row `p·2048 + q`, position `k`, is `x[p, q, keptCol k]`. -/
theorem compactInput_apply (c : Dev nD) (p : Fin 8) (q : Fin 2048) (k : Fin 1024) :
    V m c main_v7 (ix2 (⟨p.val * 2048 + q.val, by have := p.isLt; have := q.isLt; omega⟩ : Fin 16384) k)
      = m ((c : Thread nD τ).loc main_arg0) (ix3 p q (keptCol k)) := by
  have hp := p.isLt
  have hq := q.isLt
  refine (congrFun (V_v7 m c) (ix2 (⟨p.val * 2048 + q.val, by omega⟩ : Fin 16384) k)).trans ?_
  -- narrowing the format is the identity on extended reals
  refine (truncf_apply (φ := .f32) (ψ := .bf16) _ bitsLt_bf16_f32 _).trans ?_
  -- the compaction of the row array
  refine (compact_apply (n := 16384) _ _ _ _ _ _ (⟨p.val * 2048 + q.val, by omega⟩ : Fin 16384) k).trans ?_
  -- the row array is the input recast: row p·2048 + q, column d, is x[p, q, d]
  exact shapeCast_apply _ _ (ix2 (⟨p.val * 2048 + q.val, by omega⟩ : Fin 16384) (keptCol k)) (ix3 p q (keptCol k))
    (by rw [Shape.rowMajor_val_three, Shape.rowMajor_val_two]
        show (p.val * 2048 + q.val) * 4096 + (keptCol k).val = (p.val * 2048 + q.val) * 4096 + (keptCol k).val
        rfl)

/-- The compacted, transposed weight as the grid finds it: entry `(k, o)` is `w[o, keptCol k]`. -/
theorem compactWeight_apply (c : Dev nD) (k : Fin 1024) (o : Fin 4096) :
    V m c main_v15 (ix2 k o) = m ((c : Thread nD τ).loc main_arg1) (ix2 o (keptCol k)) := by
  refine (congrFun (V_v15 m c) (ix2 k o)).trans ?_
  -- narrowing the format is the identity on extended reals
  refine (truncf_apply (φ := .f32) (ψ := .bf16) _ bitsLt_bf16_f32 _).trans ?_
  -- the transposition: (k, o) reads (o, k)
  refine (transpose_apply _ _ _ (ix2 k o) (ix2 o k)
    (fun b => match b with | ⟨0, _⟩ => rfl | ⟨1, _⟩ => rfl)).trans ?_
  -- the compaction of the weight's rows
  exact compact_apply (n := 4096) _ _ _ _ _ _ o k

/-- The bias row as the grid finds it: entry `(0, o)` is `b[o]`. -/
theorem biasRow_apply (c : Dev nD) (o : Fin 4096) :
    V m c main_v16 (ix2 (0 : Fin 1) o) = m ((c : Thread nD τ).loc main_arg2) (ix1 o) := by
  refine (congrFun (V_v16 m c) (ix2 (0 : Fin 1) o)).trans ?_
  exact shapeCast_apply _ _ (ix2 (0 : Fin 1) o) (ix1 o)
    (by rw [Shape.rowMajor_val_one, Shape.rowMajor_val_two]
        show o.val = 0 * 4096 + o.val
        omega)

end Cert.KernelIdeal.HostValue

end
-- ==== Proof.Spec.lean ====
/-
  The function both programs compute, stated once over the argument arrays.

  For an input `x` of shape [8, 2048, 4096], a weight `w` of shape [4096, 4096] and a bias `b` of shape [4096],
  the result at (p, q, o) is the sum over the kept columns `d` of `x[p, q, d] · w[o, d]`, plus `b[o]`
  (`sparseLinear`); the dense reading sums over every column with the weight masked (`denseLinear`). The two are
  one function by `maskedSum_eq_compactSum`.
-/
import proofs.«126906_j56813827392139_2_alg».proof.Proof.MaskedSum
import Idealize.ShloMosaic.Lib.ValueIdx

noncomputable section

namespace Cert.SparseLinear

open Idealize.ShloMosaic Idealize.ShloMosaic.ValueIdx

/-- The result as the sum over the 1024 kept columns, plus the bias. -/
def sparseLinear (x : (⟨3, ![8, 2048, 4096]⟩ : Shape).Idx → EReal) (w : (⟨2, ![4096, 4096]⟩ : Shape).Idx → EReal)
    (b : (⟨1, ![4096]⟩ : Shape).Idx → EReal) : (⟨3, ![8, 2048, 4096]⟩ : Shape).Idx → EReal :=
  fun i => compactSum (fun d => x (ix3 (i 0 : Fin 8) (i 1 : Fin 2048) d)) (fun d => w (ix2 (i 2 : Fin 4096) d)) + b (ix1 (i 2 : Fin 4096))

/-- The result as the sum over all 4096 columns of the masked products, plus the bias. -/
def denseLinear (x : (⟨3, ![8, 2048, 4096]⟩ : Shape).Idx → EReal) (w : (⟨2, ![4096, 4096]⟩ : Shape).Idx → EReal)
    (b : (⟨1, ![4096]⟩ : Shape).Idx → EReal) : (⟨3, ![8, 2048, 4096]⟩ : Shape).Idx → EReal :=
  fun i => maskedSum (fun d => x (ix3 (i 0 : Fin 8) (i 1 : Fin 2048) d)) (fun d => w (ix2 (i 2 : Fin 4096) d)) + b (ix1 (i 2 : Fin 4096))

/-- The dense reading and the compacted reading are one function of the arrays. -/
theorem denseLinear_eq_sparseLinear (x : (⟨3, ![8, 2048, 4096]⟩ : Shape).Idx → EReal) (w : (⟨2, ![4096, 4096]⟩ : Shape).Idx → EReal)
    (b : (⟨1, ![4096]⟩ : Shape).Idx → EReal) : denseLinear x w b = sparseLinear x w b := by
  funext i
  unfold denseLinear sparseLinear
  rw [maskedSum_eq_compactSum]

end Cert.SparseLinear

end
-- ==== Proof.KernelRun.lean ====
/-
  The kernel program as a whole: the lines before the grid, the grid, and the line after it.

  The grid's [16384, 4096] output is reshaped, row-major, to the [8, 2048, 4096] result: entry (p, q, o) of the result
  is entry (p·2048 + q, o) of the grid's output, hence the sum over the compacted positions k of
  x[p, q, keptCol k] · w[o, keptCol k], plus b[o]: the compacted reading `sparseLinear` of the three arguments.
-/
import proofs.«126906_j56813827392139_2_alg».proof.Proof.GridValue
import proofs.«126906_j56813827392139_2_alg».proof.Proof.KernelHost
import proofs.«126906_j56813827392139_2_alg».proof.Proof.Spec

noncomputable section

open scoped BigOperators

namespace Cert.KernelIdeal.RunValue

open Cert.KernelIdeal Cert.KernelIdeal.Gen Idealize.ShloMosaic Idealize.ShloMosaic.TcCoe Idealize.SL.Sem
open Idealize.ShloMosaic.Pipeline (Dat)
open Idealize.ShloMosaic.ValueIdx Cert.SparseLinear Cert.KernelIdeal.GridValue Cert.KernelIdeal.HostValue

variable (m : (ℓ : Loc nD τ sig) → Buf (Elt Ideal) ℓ) (ρ : Dev nD → PrngReg)

/-- The line after the grid leaves the result at the row-major reshape of the grid's output array. -/
theorem result_eq_reshape (c : Dev nD) :
    Pipeline.afterTail₀ cfgs (dats m) 0 (V0 m) [hostOps1] c main_v18
      = shapeCast S8x2048x4096 ((dats m 0 c).arrAt 3 cfg0.N) shapeCasts_S16384x4096_S8x2048x4096 := by
  unfold Pipeline.afterTail₀
  show StableHlo.after hostOps1 _ (Proc.devRef .tc main_v18) = _
  after_results
  exact congrArg (fun X => shapeCast S8x2048x4096 X shapeCasts_S16384x4096_S8x2048x4096)
    (Pipeline.withArrays_arr spec0 launch0.win.arr_inj c (V0 m c) (fun w => (dats m 0 c).arrAt w cfg0.N) 3)

/-- The result's entry (p, q, o) is the grid output's entry (p·2048 + q, o). -/
theorem reshape_apply (G : S16384x4096.Idx → EReal) (p : Fin 8) (q : Fin 2048) (o : Fin 4096) :
    shapeCast S8x2048x4096 G shapeCasts_S16384x4096_S8x2048x4096 (ix3 p q o)
      = G (ix2 (⟨p.val * 2048 + q.val, by have := p.isLt; have := q.isLt; omega⟩ : Fin 16384) o) := by
  refine shapeCast_apply G shapeCasts_S16384x4096_S8x2048x4096 (ix3 p q o) _ ?_
  rw [Shape.rowMajor_val_two, Shape.rowMajor_val_three]
  rfl

/-- THE RESULT, as a function of the three arguments: the compacted reading of the sparse linear layer. -/
theorem result_eq (c : Dev nD) :
    shapeCast S8x2048x4096 ((dats m 0 c).arrAt 3 cfg0.N) shapeCasts_S16384x4096_S8x2048x4096
      = sparseLinear (m ((c.tc : Thread nD τ).loc main_arg0)) (m ((c.tc : Thread nD τ).loc main_arg1)) (m ((c.tc : Thread nD τ).loc main_arg2)) := by
  rw [gridOutput]
  funext i
  obtain ⟨p, q, o, rfl⟩ : ∃ (p : Fin 8) (q : Fin 2048) (o : Fin 4096), i = ix3 p q o := ⟨i 0, i 1, i 2, eq_ix3 i⟩
  rw [reshape_apply, matmulBias_apply, biasRow_apply]
  show _ = compactSum (fun d => m ((c.tc : Thread nD τ).loc main_arg0) (ix3 p q d)) (fun d => m ((c.tc : Thread nD τ).loc main_arg1) (ix2 o d))
    + m ((c.tc : Thread nD τ).loc main_arg2) (ix1 o)
  unfold compactSum
  refine congrArg (· + _) (Finset.sum_congr rfl fun k _ => ?_)
  rw [compactInput_apply, compactWeight_apply]

/-- Every weakly fair execution of the kernel program terminates with its result the compacted reading of the sparse
    linear layer of the argument arrays, and the arguments unchanged. -/
theorem run : θ_run (defs (F := Ideal)) (onTc (τ := τ) (main (F := Ideal))) ⟨m, fun _ => 0, ρ⟩ fun r => ∀ c : Dev nD,
      r.2.mem ((c.tc : Thread nD τ).loc main_v18)
          = sparseLinear (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(((h c).2 main_v18 (Pipeline.mem_restRefs_of main_v18 (by decide) (by decide))).trans (result_eq_reshape m c)).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.RunValue

end
-- ==== Proof.RefRun.lean ====
/-
  The reference's run, read back: its eleven host operations as a list, and what the result buffer holds after them
  as one term of the three argument arrays.
-/
import proofs.«126906_j56813827392139_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The eleven operations of the reference, in order. -/
abbrev ops : List (HloOp τ sig (Elt F)) :=
  [ nullary main_cst (fun i => FloatOps.ofBits .f32 (lit0 (S8.rowMajor i))),
    reshape main_cst main_v0 rfl shapeCasts_S8_S1x8,
    unary main_v0 main_v1 (broadcastInDim S512x8 ![0, 1] bcast_S1x8_S512x8_0_1 : (⟨S1x8, .f32⟩ : BufTy).Contents (Elt F) → (⟨S512x8, .f32⟩ : BufTy).Contents (Elt F)),
    reshape main_v1 main_v2 rfl shapeCasts_S512x8_S4096,
    unary main_v2 main_v3 (broadcastInDim S1x4096 ![1] bcast_S4096_S1x4096_1 : (⟨S4096, .f32⟩ : BufTy).Contents (Elt F) → (⟨S1x4096, .f32⟩ : BufTy).Contents (Elt F)),
    unary main_v3 main_v4 (broadcastInDim S4096x4096 ![0, 1] bcast_S1x4096_S4096x4096_0_1 : (⟨S1x4096, .f32⟩ : BufTy).Contents (Elt F) → (⟨S4096x4096, .f32⟩ : BufTy).Contents (Elt F)),
    binary main_arg1 main_v4 main_v5 (mulf : (⟨S4096x4096, .f32⟩ : BufTy).Contents (Elt F) → (⟨S4096x4096, .f32⟩ : BufTy).Contents (Elt F) → (⟨S4096x4096, .f32⟩ : BufTy).Contents (Elt F)),
    binary main_arg0 main_v5 main_v6 ((fun l r => Host.dotGeneral dot_S8x2048x4096_S4096x4096_S8x2048x4096_2_1_01_0_n_n none l r) : (⟨S8x2048x4096, .f32⟩ : BufTy).Contents (Elt F) → (⟨S4096x4096, .f32⟩ : BufTy).Contents (Elt F) → (⟨S8x2048x4096, .f32⟩ : BufTy).Contents (Elt F)),
    unary main_arg2 main_v7 (broadcastInDim S1x1x4096 ![2] bcast_S4096_S1x1x4096_2 : (⟨S4096, .f32⟩ : BufTy).Contents (Elt F) → (⟨S1x1x4096, .f32⟩ : BufTy).Contents (Elt F)),
    unary main_v7 main_v8 (broadcastInDim S8x2048x4096 ![0, 1, 2] bcast_S1x1x4096_S8x2048x4096_0_1_2 : (⟨S1x1x4096, .f32⟩ : BufTy).Contents (Elt F) → (⟨S8x2048x4096, .f32⟩ : BufTy).Contents (Elt F)),
    binary main_v6 main_v8 main_v9 (addf : (⟨S8x2048x4096, .f32⟩ : BufTy).Contents (Elt F) → (⟨S8x2048x4096, .f32⟩ : BufTy).Contents (Elt F) → (⟨S8x2048x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., reshape_bufs_sub .., unary_bufs_sub .., reshape_bufs_sub .., unary_bufs_sub .., unary_bufs_sub ..,
    binary_bufs_sub .., binary_bufs_sub .., unary_bufs_sub .., unary_bufs_sub .., binary_bufs_sub ..⟩

/-- The mask row: the eight-entry table read through its reshape to [1,8], the replication to [512,8] and the row-major
    reshape to [4096]. -/
def maskRow : (⟨S4096, .f32⟩ : BufTy).Contents (Elt F) :=
  shapeCast S4096
    (broadcastInDim S512x8 ![0, 1] bcast_S1x8_S512x8_0_1
      (shapeCast S1x8 (fun i => FloatOps.ofBits .f32 (lit0 (S8.rowMajor i)) : (⟨S8, .f32⟩ : BufTy).Contents (Elt F)) shapeCasts_S8_S1x8))
    shapeCasts_S512x8_S4096

/-- The operations' composed term of the three argument arrays: the input contracted, along its last axis, with the
    weight times the mask row replicated down the rows, plus the bias replicated over the two leading axes. -/
def refTerm (x : (⟨S8x2048x4096, .f32⟩ : BufTy).Contents (Elt F)) (w : (⟨S4096x4096, .f32⟩ : BufTy).Contents (Elt F))
    (b : (⟨S4096, .f32⟩ : BufTy).Contents (Elt F)) : (⟨S8x2048x4096, .f32⟩ : BufTy).Contents (Elt F) :=
  addf
    (Host.dotGeneral dot_S8x2048x4096_S4096x4096_S8x2048x4096_2_1_01_0_n_n none x
      (mulf w
        (broadcastInDim S4096x4096 ![0, 1] bcast_S1x4096_S4096x4096_0_1
          (broadcastInDim S1x4096 ![1] bcast_S4096_S1x4096_1 maskRow))))
    (broadcastInDim S8x2048x4096 ![0, 1, 2] bcast_S1x1x4096_S8x2048x4096_0_1_2
      (broadcastInDim S1x1x4096 ![2] bcast_S4096_S1x1x4096_2 b))

/-- On every device, for any float values, from any memory with zero counters: every weakly fair execution of the
    reference terminates with its result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9)
          = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v9).trans (by after_results; rfl),
      (h c main_arg0).trans (by after_results),
      (h c main_arg1).trans (by after_results),
      (h c main_arg2).trans (by after_results)⟩)
    (run_seq scopedRefs_eq scopedSems_eq defs main (fun _ => ops) main_eq (fun _ => ops_sub) m ρ)

end Cert.ReferenceIdeal.RefRun

end
-- ==== Proof.RefValue.lean ====
/-
  The reference read as a function of its arguments.

  The mask row is the eight-entry table [1,0,1,0,0,0,0,0] repeated 512 times: the table is reshaped to [1,8], replicated
  to [512,8] and flattened row-major to [4096], so column d reads the table at d % 8 (its row d / 8 is one of the 512
  equal copies). The table's entries are the mask of a group of eight, one at positions 0 and 2. The weight is multiplied
  by that row replicated down its 4096 rows, the input is contracted with the result along the column axis, and the bias,
  replicated over the two leading axes, is added: at (p, q, o) the result is the sum over all columns d of
  x[p,q,d] · (w[o,d] · mask(d % 8)), plus b[o].
-/
import proofs.«126906_j56813827392139_2_alg».proof.Proof.RefRun
import proofs.«126906_j56813827392139_2_alg».proof.Proof.Spec
import Idealize.ShloMosaic.Lib.Pipeline.Value
import Idealize.ShloMosaic.Lib.IdealHost

noncomputable section

open scoped BigOperators

namespace Cert.ReferenceIdeal.RefValue

open Cert.ReferenceIdeal Cert.ReferenceIdeal.Gen Cert.ReferenceIdeal.RefRun Idealize.ShloMosaic Idealize.ShloMosaic.TcCoe Idealize.SL.Sem
  Idealize.ShloMosaic.StableHlo Idealize.ShloMosaic.ValueIdx Cert.SparseLinear

/-- The table's entry at a position of a group of eight is the group mask there: one at positions 0 and 2, zero at the
    other six. -/
theorem table_eq_keepMask : ∀ r : Fin 8, Ideal.ofBits .f32 (lit0 r) = keepMask r
  | ⟨0, _⟩ => by show Ideal.ofBits .f32 0x3F800000#32 = _; rw [Ideal.ofBits_one_f32]; simp [keepMask]
  | ⟨1, _⟩ => by show Ideal.ofBits .f32 0x00000000#32 = _; rw [Ideal.ofBits_zero_f32]; simp [keepMask]
  | ⟨2, _⟩ => by show Ideal.ofBits .f32 0x3F800000#32 = _; rw [Ideal.ofBits_one_f32]; simp [keepMask]
  | ⟨3, _⟩ => by show Ideal.ofBits .f32 0x00000000#32 = _; rw [Ideal.ofBits_zero_f32]; simp [keepMask]
  | ⟨4, _⟩ => by show Ideal.ofBits .f32 0x00000000#32 = _; rw [Ideal.ofBits_zero_f32]; simp [keepMask]
  | ⟨5, _⟩ => by show Ideal.ofBits .f32 0x00000000#32 = _; rw [Ideal.ofBits_zero_f32]; simp [keepMask]
  | ⟨6, _⟩ => by show Ideal.ofBits .f32 0x00000000#32 = _; rw [Ideal.ofBits_zero_f32]; simp [keepMask]
  | ⟨7, _⟩ => by show Ideal.ofBits .f32 0x00000000#32 = _; rw [Ideal.ofBits_zero_f32]; simp [keepMask]

/-- The mask row at column d is the group mask at d's position in its group: the row-major reshape [512,8] → [4096]
    reads column d at (d / 8, d % 8), every one of the 512 rows is the same copy of the [1,8] table, and that is the
    eight-entry table at d % 8. -/
theorem maskRow_apply (d : Fin 4096) : maskRow (F := Ideal) (ix1 d) = keepMask (groupPos d) := by
  have hd := d.isLt
  have hr : (groupPos d).val = d.val % 8 := rfl
  unfold maskRow
  -- [4096] at d reads [512,8] at (d / 8, d % 8)
  refine (shapeCast_apply _ _ (ix1 d) (ix2 (⟨d.val / 8, by omega⟩ : Fin 512) (groupPos d))
    (by rw [Shape.rowMajor_val_two, Shape.rowMajor_val_one]
        show d.val / 8 * 8 + (groupPos d).val = d.val
        omega)).trans ?_
  -- [512,8] at (a, r) reads [1,8] at (0, r)
  refine (broadcastInDim_apply _ _ _ _ (ix2 (0 : Fin 1) (groupPos d))
    (fun a => match a with | ⟨0, _⟩ => rfl | ⟨1, _⟩ => rfl)).trans ?_
  -- [1,8] at (0, r) reads [8] at r
  refine (shapeCast_apply _ _ _ (ix1 (groupPos d))
    (by rw [Shape.rowMajor_val_one, Shape.rowMajor_val_two]
        show (groupPos d).val = 0 * 8 + (groupPos d).val
        omega)).trans ?_
  -- the table at r
  refine (congrArg (fun q : Fin 8 => Ideal.ofBits .f32 (lit0 q))
    (Fin.ext (Shape.rowMajor_val_one (ix1 (groupPos d))) : S8.rowMajor (ix1 (groupPos d)) = groupPos d)).trans ?_
  exact table_eq_keepMask _

/-- The mask row replicated down the 4096 rows of the weight reads, at (o, d), the mask row at d. -/
theorem maskMatrix_apply (o d : Fin 4096) :
    broadcastInDim S4096x4096 ![0, 1] bcast_S1x4096_S4096x4096_0_1
        (broadcastInDim S1x4096 ![1] bcast_S4096_S1x4096_1 (maskRow (F := Ideal))) (ix2 o d) = keepMask (groupPos d) := by
  refine (broadcastInDim_apply _ _ _ (ix2 o d) (ix2 (0 : Fin 1) d)
    (fun a => match a with | ⟨0, _⟩ => rfl | ⟨1, _⟩ => rfl)).trans ?_
  refine (broadcastInDim_apply _ _ _ _ (ix1 d) (fun a => match a with | ⟨0, _⟩ => rfl)).trans ?_
  exact maskRow_apply d

/-- The bias replicated over the two leading axes reads, at (p, q, o), the bias at o. -/
theorem biasBlock_apply (b : (⟨S4096, .f32⟩ : BufTy).Contents (Elt Ideal)) (p : Fin 8) (q : Fin 2048) (o : Fin 4096) :
    broadcastInDim S8x2048x4096 ![0, 1, 2] bcast_S1x1x4096_S8x2048x4096_0_1_2
        (broadcastInDim S1x1x4096 ![2] bcast_S4096_S1x1x4096_2 b) (ix3 p q o) = b (ix1 o) := by
  refine (broadcastInDim_apply _ _ _ (ix3 p q o) (ix3 (0 : Fin 1) (0 : Fin 1) o)
    (fun a => match a with | ⟨0, _⟩ => rfl | ⟨1, _⟩ => rfl | ⟨2, _⟩ => rfl)).trans ?_
  exact broadcastInDim_apply _ _ _ _ (ix1 o) (fun a => match a with | ⟨0, _⟩ => rfl)

/-- The contraction read at (p, q, o): the sum over the 4096 columns d of x[p,q,d] · v[o,d]. The dimension numbers
    contract axis 2 of the input with axis 1 of the second operand, and the contraction index is its one coordinate. -/
theorem dot_apply (x : FVec Ideal S8x2048x4096 .f32) (v : FVec Ideal S4096x4096 .f32)
    (p : Fin 8) (q : Fin 2048) (o : Fin 4096) :
    Host.dotGeneral (F := Ideal) dot_S8x2048x4096_S4096x4096_S8x2048x4096_2_1_01_0_n_n none x v (ix3 p q o)
      = ∑ d : Fin 4096, x (ix3 p q d) * v (ix2 o d) := by
  show FloatOps.dotGeneral _ none _ x v (ix3 p q o) = _
  rw [Ideal.dotGeneral_apply,
    ← Equiv.sum_comp (contrEquiv1 dot_S8x2048x4096_S4096x4096_S8x2048x4096_2_1_01_0_n_n 4096 rfl rfl).symm]
  refine Finset.sum_congr rfl fun c _ => ?_
  have c3 := contrEquiv1_symm_val dot_S8x2048x4096_S4096x4096_S8x2048x4096_2_1_01_0_n_n 4096 rfl rfl c
  have l3 : dot_S8x2048x4096_S4096x4096_S8x2048x4096_2_1_01_0_n_n.lhsIdx (ix3 p q o)
      ((contrEquiv1 _ 4096 rfl rfl).symm c) = ix3 p q c := by
    funext ax; apply Fin.ext
    match ax with
    | ⟨0, _⟩ => simp [DotDims.lhsIdx, dot_S8x2048x4096_S4096x4096_S8x2048x4096_2_1_01_0_n_n]; rfl
    | ⟨1, _⟩ => simp [DotDims.lhsIdx, dot_S8x2048x4096_S4096x4096_S8x2048x4096_2_1_01_0_n_n]; rfl
    | ⟨2, _⟩ => simp [DotDims.lhsIdx, dot_S8x2048x4096_S4096x4096_S8x2048x4096_2_1_01_0_n_n]; exact c3
  have r3 : dot_S8x2048x4096_S4096x4096_S8x2048x4096_2_1_01_0_n_n.rhsIdx (ix3 p q o)
      ((contrEquiv1 _ 4096 rfl rfl).symm c) = ix2 o c := by
    funext ax; apply Fin.ext
    match ax with
    | ⟨0, _⟩ => simp [DotDims.rhsIdx, dot_S8x2048x4096_S4096x4096_S8x2048x4096_2_1_01_0_n_n]; rfl
    | ⟨1, _⟩ => simp [DotDims.rhsIdx, dot_S8x2048x4096_S4096x4096_S8x2048x4096_2_1_01_0_n_n]; exact c3
  rw [l3, r3]

/-- The reference's composed term is the dense reading of the linear layer: at (p, q, o) the sum over all 4096 columns
    of the input times the masked weight, plus the bias. -/
theorem refTerm_eq_denseLinear (x : (⟨S8x2048x4096, .f32⟩ : BufTy).Contents (Elt Ideal)) (w : (⟨S4096x4096, .f32⟩ : BufTy).Contents (Elt Ideal))
    (b : (⟨S4096, .f32⟩ : BufTy).Contents (Elt Ideal)) : refTerm (F := Ideal) x w b = denseLinear x w b := by
  funext i
  obtain ⟨p, q, o, rfl⟩ : ∃ (p : Fin 8) (q : Fin 2048) (o : Fin 4096), i = ix3 p q o := ⟨i 0, i 1, i 2, eq_ix3 i⟩
  unfold refTerm denseLinear maskedSum
  rw [addf_apply, dot_apply, biasBlock_apply]
  refine congrArg (· + b (ix1 o)) (Finset.sum_congr rfl fun d _ => ?_)
  rw [mulf_apply, maskMatrix_apply]

/-- Every weakly fair execution of the reference terminates with its result the dense-math linear layer of the
    argument arrays, which is the sum over the kept columns, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9)
          = Cert.SparseLinear.sparseLinear (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c).1.trans ((refTerm_eq_denseLinear _ _ _).trans (denseLinear_eq_sparseLinear _ _ _)), (h c).2⟩)
    (RefRun.run (F := Ideal) m ρ)

end Cert.ReferenceIdeal.RefValue

end
-- ==== Proof.lean ====
/-
  An N:M structured-sparse linear layer, computed by compacting the contracted axis, against its dense reference.

  The reference multiplies the weight by a mask that keeps columns 0 and 2 of every group of eight and contracts the
  input with the masked weight over all 4096 columns, then adds the bias. The kernel program instead keeps only those
  1024 columns of the input and of the weight (position 0 of every group first, then position 2 of every group), rounds
  both to bf16, multiplies the compacted matrices block by block on an 8 × 4 grid with the bias added inside each
  block, and reshapes the result. Over the extended reals a change of float format is the identity and a product with
  the mask's 0 is 0 for every factor, so the masked columns contribute nothing to the dense sum and the two programs
  compute one function of the three arguments, `sparseLinear`: at (p, q, o) the sum over the kept columns d of
  x[p, q, d] · w[o, d], plus b[o]. No finiteness of the inputs is used.

  The kernel program's run is read in three steps — what one grid point stores (BlockValue), the grid's output array as
  one function of the three arrays it reads (GridValue), those arrays and the final reshape in terms of the arguments
  (KernelHost, KernelRun) — and the reference's in two (RefRun, RefValue); MaskedSum is the regrouping of the dense sum.
-/
import proofs.«126906_j56813827392139_2_alg».proof.Defs
import proofs.«126906_j56813827392139_2_alg».proof.Proof.Gen.Kernel
import proofs.«126906_j56813827392139_2_alg».proof.Proof.Gen.Kernel.Frame
import proofs.«126906_j56813827392139_2_alg».proof.Proof.Gen.KernelIdeal
import proofs.«126906_j56813827392139_2_alg».proof.Proof.Gen.KernelIdeal.Frame
import proofs.«126906_j56813827392139_2_alg».proof.Proof.Gen.ReferenceIdeal
import proofs.«126906_j56813827392139_2_alg».proof.Proof.Gen.Pre_finite_inputs
import proofs.«126906_j56813827392139_2_alg».proof.Proof.KernelRun
import proofs.«126906_j56813827392139_2_alg».proof.Proof.RefValue

noncomputable section

namespace Cert.Proof

open Idealize.ShloMosaic Idealize.SL.Sem

/-- The kernel program as printed terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on the arguments, the idealized kernel program and the idealized reference both end with
    the compacted reading of the sparse linear layer of those arguments. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
